-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 88
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x256, .f32⟩
  | .hbm, ⟨46, _⟩ => ⟨S850000x1, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | .hbm, ⟨68, _⟩ => ⟨S50000x128, .f32⟩
  | .hbm, ⟨69, _⟩ => ⟨S850000x1, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x256, .f32⟩
  | .hbm, ⟨46, _⟩ => ⟨S850000x1, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | .hbm, ⟨68, _⟩ => ⟨S50000x128, .f32⟩
  | .hbm, ⟨69, _⟩ => ⟨S850000x1, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«169060_j72971494359297_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.KernelRun.lean ====
/-
  The idealized kernel's run with its result named. The program is two launches of the row-blocked product among three
  stretches of host operations; its generated frame walks the buffers' contents through the program's segments
  (`Gen.W0` … `Gen.W8`: three lists of host operations, the first launch, two lists, the second launch, one list) and
  reads only the argument arrays off the last one. Here the same walk is read at the result buffer too: after the run
  it holds the last segment's contents `Gen.W8` at that buffer.
-/
import proofs.«169060_j72971494359297_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the contents
    the walk through the segments assigns it, and the argument arrays are as launched. -/
theorem run_result : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.GcnSpec.lean ====
/-
  A two-layer graph convolution as a function of its arguments and of the two dense products it contains.

  The graph has 50000 nodes and 800000 edges given as a [2, 800000] table of endpoints (row 0 the sources, row 1 the
  targets); a self-loop is added at every node, so the endpoint lists have 850000 entries. With deg(v) the number of
  entries of the target list equal to v and dis(v) = deg(v)^(-1/2) where deg(v) > 0 (0 elsewhere), entry k of the edge
  weights is dis(src k) · dis(dst k). One layer maps a table h of per-node rows and a bias b to
      out(v, ·) = Σ_{k : dst k = v} weight(k) · h(src k, ·) + b,
  the sum a scatter-add into zeros. The network is layer₂ (relu (layer₁ (x · W1)) · W2), and everything in it except
  the two dense products is spelt here once, over the products' results as parameters: two programs that differ only
  in how they form those products compute the same function as soon as their products agree.
-/
import proofs.«169060_j72971494359297_1_alg».proof.Proof.Gen.ReferenceIdeal
import Idealize.ShloMosaic.PureOps.Ideal

noncomputable section

namespace Cert.Gcn

open Cert.ReferenceIdeal Cert.ReferenceIdeal.Facts₀ Idealize.ShloMosaic

/-- One row of the endpoint table followed by the node numbers 0 … 49999 (the self-loops): row 0, the sources. -/
def srcOf (e : IVec S2x800000 32) : IVec S850000 32 :=
  concatenate S850000 0 [⟨S800000, shapeCast _ (extractStridedSlice S1x800000 ![0, 0] e slices_S2x800000_S1x800000_0_0) shapeCasts_S1x800000_S800000⟩, ⟨S50000, iotaInDim S50000 32 0⟩] concatenates_S800000_S50000_S850000_d0

/-- Row 1, the targets, followed by the node numbers. -/
def dstOf (e : IVec S2x800000 32) : IVec S850000 32 :=
  concatenate S850000 0 [⟨S800000, shapeCast _ (extractStridedSlice S1x800000 ![1, 0] e slices_S2x800000_S1x800000_1_0) shapeCasts_S1x800000_S800000⟩, ⟨S50000, iotaInDim S50000 32 0⟩] concatenates_S800000_S50000_S850000_d0

/-- deg: a one added at every entry of the target list, into zeros. -/
def degOf (dst : IVec S850000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 dst)
    (broadcastInDim S850000 ![] bcast_S_S850000 (constant (F := Ideal) S_ .f32 0x3F800000#32))

/-- The zero table of per-node values. -/
def zeroNodes : FVec Ideal S50000 .f32 :=
  broadcastInDim S50000 ![] bcast_S_S50000 (constant (F := Ideal) S_ .f32 0x00000000#32)

/-- Where deg > 0. -/
def degPos (dst : IVec S850000 32) : IVec S50000 1 := cmpf (F := Ideal) .ogt (degOf dst) zeroNodes

/-- deg^(-1/2). -/
def degRsqrt (dst : IVec S850000 32) : FVec Ideal S50000 .f32 := Host.rsqrt (F := Ideal) (degOf dst)

/-- dis: deg^(-1/2) where deg > 0, and 0 elsewhere. -/
def disOf (dst : IVec S850000 32) : FVec Ideal S50000 .f32 := select (degPos dst) (degRsqrt dst) zeroNodes

/-- An endpoint list as the [850000, 1] table of row numbers a gather takes: a negative entry counted from the end
    (plus 50000), as jnp's indexing has it. -/
def rowsOf (ix : IVec S850000 32) : IVec S850000x1 32 :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- The edge weights dis(src k) · dis(dst k), from a table dis of per-node values. -/
def normFrom (dis : FVec Ideal S50000 .f32) (src dst : IVec S850000 32) : FVec Ideal S850000 .f32 :=
  mulf (Host.gather gather_S50000_S850000x1_S850000_n_0_n_n_0_1_1 dis (rowsOf src))
    (Host.gather gather_S50000_S850000x1_S850000_n_0_n_n_0_1_1 dis (rowsOf dst))

/-- The edge weights of the graph. -/
def normOf (src dst : IVec S850000 32) : FVec Ideal S850000 .f32 := normFrom (disOf dst) src dst

/-- One layer on rows of width 256: gather the source rows of h, scale by the edge weights, scatter-add at the targets
    into zeros, add the bias. -/
def conv256 (src dst : IVec S850000 32) (norm : FVec Ideal S850000 .f32) (h : FVec Ideal S50000x256 .f32) (b : FVec Ideal S256 .f32) :
    FVec Ideal S50000x256 .f32 :=
  addf
    (Host.scatterAdd (F := Ideal) scatter_S50000x256_S850000x1_S850000x256_1_0_0_1
      (broadcastInDim S50000x256 ![] bcast_S_S50000x256 (constant (F := Ideal) S_ .f32 0x00000000#32))
      (broadcastInDim S850000x1 ![0] bcast_S850000_S850000x1_0 dst)
      (mulf (broadcastInDim S850000x256 ![0, 1] bcast_S850000x1_S850000x256_0_1 (broadcastInDim S850000x1 ![0] bcast_S850000_S850000x1_0 norm))
        (Host.gather gather_S50000x256_S850000x1_S850000x256_1_0_n_n_0_1_1256 h (rowsOf src))))
    (broadcastInDim S50000x256 ![0, 1] bcast_S1x256_S50000x256_0_1 (broadcastInDim S1x256 ![1] bcast_S256_S1x256_1 b))

/-- relu: the maximum with zero. -/
def relu256 (h : FVec Ideal S50000x256 .f32) : FVec Ideal S50000x256 .f32 :=
  maximumf h (broadcastInDim S50000x256 ![] bcast_S_S50000x256 (constant (F := Ideal) S_ .f32 0x00000000#32))

/-- The first layer followed by relu. -/
def hidden (src dst : IVec S850000 32) (norm : FVec Ideal S850000 .f32) (h : FVec Ideal S50000x256 .f32) (b : FVec Ideal S256 .f32) :
    FVec Ideal S50000x256 .f32 :=
  relu256 (conv256 src dst norm h b)

/-- One layer on rows of width 128. -/
def conv128 (src dst : IVec S850000 32) (norm : FVec Ideal S850000 .f32) (h : FVec Ideal S50000x128 .f32) (b : FVec Ideal S128 .f32) :
    FVec Ideal S50000x128 .f32 :=
  addf
    (Host.scatterAdd (F := Ideal) scatter_S50000x128_S850000x1_S850000x128_1_0_0_1
      (broadcastInDim S50000x128 ![] bcast_S_S50000x128 (constant (F := Ideal) S_ .f32 0x00000000#32))
      (broadcastInDim S850000x1 ![0] bcast_S850000_S850000x1_0 dst)
      (mulf (broadcastInDim S850000x128 ![0, 1] bcast_S850000x1_S850000x128_0_1 (broadcastInDim S850000x1 ![0] bcast_S850000_S850000x1_0 norm))
        (Host.gather gather_S50000x128_S850000x1_S850000x128_1_0_n_n_0_1_1128 h (rowsOf src))))
    (broadcastInDim S50000x128 ![0, 1] bcast_S1x128_S50000x128_0_1 (broadcastInDim S1x128 ![1] bcast_S128_S1x128_1 b))

end Cert.Gcn

end
-- ==== Proof.KernelHost.lean ====
/-
  The idealized kernel's stretches of host operations, each read as one function of the buffers it finds (any contents
  `V`). Before the first launch: the endpoint lists, the degree table's two tests, dis, and the edge weights; between
  the launches: the first layer's aggregation over the first product's array, then the relu; after the second launch:
  the second layer's aggregation over the second product's array. Each is the corresponding function of
  Proof/GcnSpec.lean, and a buffer a stretch does not write keeps its contents.
-/
import proofs.«169060_j72971494359297_1_alg».proof.Proof.Gen.KernelIdeal.Frame
import proofs.«169060_j72971494359297_1_alg».proof.Proof.GcnSpec
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.ShloMosaic.StableHlo
open Cert.Gcn

variable (V : Valuation τ sig (Elt Ideal))

/-! ## What each list writes, and what it keeps -/

/-- The buffers the operations of this list write. -/
abbrev wr_0 : List (Ref sig .tc) := [main_v0, main_v1, main_v2, main_v3, main_v4, main_v5, main_v6, main_cst, main_v7, main_cst_0, main_v8, main_v9, main_v10, main_cst_1, main_v11, main_v12, main_v13, main_cst_2, main_v14]
set_option maxHeartbeats 8000000 in
theorem writes_0 : (hostOps0 (F := Ideal)).Forall fun op => op.writes ⊆ ((wr_0).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer the list does not write keeps its contents. -/
theorem keep_0 {r : Ref sig .tc} (h : r ∉ wr_0) : after (hostOps0 (F := Ideal)) V (Proc.devRef .tc r) = V (Proc.devRef .tc r) :=
  after_of_writes_sub _ V writes_0 h

/-- The buffers the operations of this list write. -/
abbrev wr_01 : List (Ref sig .tc) := [main_v15]
set_option maxHeartbeats 8000000 in
theorem writes_01 : (hostOps0_1 (F := Ideal)).Forall fun op => op.writes ⊆ ((wr_01).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer the list does not write keeps its contents. -/
theorem keep_01 {r : Ref sig .tc} (h : r ∉ wr_01) : after (hostOps0_1 (F := Ideal)) V (Proc.devRef .tc r) = V (Proc.devRef .tc r) :=
  after_of_writes_sub _ V writes_01 h

/-- The buffers the operations of this list write. -/
abbrev wr_02 : List (Ref sig .tc) := [main_c, main_v16, main_v17, main_c_3, main_v18, main_v19, main_v20, main_v21, main_v22, main_c_4, main_v23, main_v24, main_c_5, main_v25, main_v26, main_v27, main_v28, main_v29, main_v30]
set_option maxHeartbeats 8000000 in
theorem writes_02 : (hostOps0_2 (F := Ideal)).Forall fun op => op.writes ⊆ ((wr_02).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer the list does not write keeps its contents. -/
theorem keep_02 {r : Ref sig .tc} (h : r ∉ wr_02) : after (hostOps0_2 (F := Ideal)) V (Proc.devRef .tc r) = V (Proc.devRef .tc r) :=
  after_of_writes_sub _ V writes_02 h

/-- The buffers the operations of this list write. -/
abbrev wr_1 : List (Ref sig .tc) := [main_v32, main_c_6, main_v33, main_v34, main_c_7, main_v35, main_v36, main_v37, main_v38, main_v39, main_v40, main_v41, main_cst_8, main_v42, main_v43, main_v44, main_v45, main_v46, main_v47]
set_option maxHeartbeats 8000000 in
theorem writes_1 : (hostOps1 (F := Ideal)).Forall fun op => op.writes ⊆ ((wr_1).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer the list does not write keeps its contents. -/
theorem keep_1 {r : Ref sig .tc} (h : r ∉ wr_1) : after (hostOps1 (F := Ideal)) V (Proc.devRef .tc r) = V (Proc.devRef .tc r) :=
  after_of_writes_sub _ V writes_1 h

/-- The buffers the operations of this list write. -/
abbrev wr_11 : List (Ref sig .tc) := [main_call1_cst, main_call1_v0, main_v48]
set_option maxHeartbeats 8000000 in
theorem writes_11 : (hostOps1_1 (F := Ideal)).Forall fun op => op.writes ⊆ ((wr_11).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer the list does not write keeps its contents. -/
theorem keep_11 {r : Ref sig .tc} (h : r ∉ wr_11) : after (hostOps1_1 (F := Ideal)) V (Proc.devRef .tc r) = V (Proc.devRef .tc r) :=
  after_of_writes_sub _ V writes_11 h

/-! ## Each list's results -/

set_option maxHeartbeats 8000000 in
theorem k0_src : after (hostOps0 (F := Ideal)) V (Proc.devRef .tc main_v3) = srcOf (V (Proc.devRef .tc main_arg1)) := by
  after_results_simp <;> rfl

set_option maxHeartbeats 8000000 in
theorem k0_dst : after (hostOps0 (F := Ideal)) V (Proc.devRef .tc main_v6) = dstOf (V (Proc.devRef .tc main_arg1)) := by
  after_results_simp <;> rfl

set_option maxHeartbeats 8000000 in
theorem k0_pos : after (hostOps0 (F := Ideal)) V (Proc.devRef .tc main_v12) = degPos (dstOf (V (Proc.devRef .tc main_arg1))) := by
  after_results_simp <;> rfl

set_option maxHeartbeats 8000000 in
theorem k0_rsqrt : after (hostOps0 (F := Ideal)) V (Proc.devRef .tc main_v13) = degRsqrt (dstOf (V (Proc.devRef .tc main_arg1))) := by
  after_results_simp <;> rfl

set_option maxHeartbeats 8000000 in
theorem k0_zero : after (hostOps0 (F := Ideal)) V (Proc.devRef .tc main_v14) = zeroNodes := by
  after_results_simp <;> rfl

set_option maxHeartbeats 8000000 in
theorem k01_dis : after (hostOps0_1 (F := Ideal)) V (Proc.devRef .tc main_v15) = select (V (Proc.devRef .tc main_v12)) (V (Proc.devRef .tc main_v13)) (V (Proc.devRef .tc main_v14)) := by
  after_results_simp <;> rfl

set_option maxHeartbeats 8000000 in
theorem k02_norm : after (hostOps0_2 (F := Ideal)) V (Proc.devRef .tc main_v30) = normFrom (V (Proc.devRef .tc main_v15)) (V (Proc.devRef .tc main_v3)) (V (Proc.devRef .tc main_v6)) := by
  after_results_simp <;> rfl

set_option maxHeartbeats 8000000 in
theorem k1_conv : after (hostOps1 (F := Ideal)) V (Proc.devRef .tc main_v47) = conv256 (V (Proc.devRef .tc main_v3)) (V (Proc.devRef .tc main_v6)) (V (Proc.devRef .tc main_v30)) (V (Proc.devRef .tc main_v31)) (V (Proc.devRef .tc main_arg3)) := by
  after_results_simp <;> rfl

set_option maxHeartbeats 8000000 in
theorem k11_relu : after (hostOps1_1 (F := Ideal)) V (Proc.devRef .tc main_v48) = relu256 (V (Proc.devRef .tc main_v47)) := by
  after_results_simp <;> rfl

set_option maxHeartbeats 8000000 in
theorem tail_out : after (hostOps2 (F := Ideal)) V (Proc.devRef .tc main_v65) = conv128 (V (Proc.devRef .tc main_v3)) (V (Proc.devRef .tc main_v6)) (V (Proc.devRef .tc main_v30)) (V (Proc.devRef .tc main_v49)) (V (Proc.devRef .tc main_arg5)) := by
  after_results_simp <;> rfl

/-! ## Before the first launch, as a whole -/

/-- The buffers' contents after the three lists before the first launch. -/
abbrev afterPre : Valuation τ sig (Elt Ideal) :=
  after (hostOps0_2 (F := Ideal)) (after (hostOps0_1 (F := Ideal)) (after (hostOps0 (F := Ideal)) V))

theorem pre_src : afterPre V (Proc.devRef .tc main_v3) = srcOf (V (Proc.devRef .tc main_arg1)) := by
  show after (hostOps0_2 (F := Ideal)) (after (hostOps0_1 (F := Ideal)) (after (hostOps0 (F := Ideal)) V)) _ = _
  rw [keep_02 (r := main_v3) _ (by decide), keep_01 (r := main_v3) _ (by decide), k0_src]

theorem pre_dst : afterPre V (Proc.devRef .tc main_v6) = dstOf (V (Proc.devRef .tc main_arg1)) := by
  show after (hostOps0_2 (F := Ideal)) (after (hostOps0_1 (F := Ideal)) (after (hostOps0 (F := Ideal)) V)) _ = _
  rw [keep_02 (r := main_v6) _ (by decide), keep_01 (r := main_v6) _ (by decide), k0_dst]

theorem pre_norm : afterPre V (Proc.devRef .tc main_v30) = normOf (srcOf (V (Proc.devRef .tc main_arg1))) (dstOf (V (Proc.devRef .tc main_arg1))) := by
  show after (hostOps0_2 (F := Ideal)) (after (hostOps0_1 (F := Ideal)) (after (hostOps0 (F := Ideal)) V)) _ = _
  rw [k02_norm, k01_dis, keep_01 (r := main_v3) _ (by decide), keep_01 (r := main_v6) _ (by decide),
    k0_pos, k0_rsqrt, k0_zero, k0_src, k0_dst]
  rfl

theorem pre_keep {r : Ref sig .tc} (h0 : r ∉ wr_0) (h1 : r ∉ wr_01) (h2 : r ∉ wr_02) :
    afterPre V (Proc.devRef .tc r) = V (Proc.devRef .tc r) := by
  show after (hostOps0_2 (F := Ideal)) (after (hostOps0_1 (F := Ideal)) (after (hostOps0 (F := Ideal)) V)) _ = _
  rw [keep_02 _ h2, keep_01 _ h1, keep_0 _ h0]

/-! ## Between the launches, as a whole -/

/-- The buffers' contents after the two lists between the launches. -/
abbrev afterMid : Valuation τ sig (Elt Ideal) :=
  after (hostOps1_1 (F := Ideal)) (after (hostOps1 (F := Ideal)) V)

theorem mid_hidden : afterMid V (Proc.devRef .tc main_v48)
    = hidden (V (Proc.devRef .tc main_v3)) (V (Proc.devRef .tc main_v6)) (V (Proc.devRef .tc main_v30)) (V (Proc.devRef .tc main_v31)) (V (Proc.devRef .tc main_arg3)) := by
  show after (hostOps1_1 (F := Ideal)) (after (hostOps1 (F := Ideal)) V) _ = _
  rw [k11_relu, k1_conv]
  rfl

theorem mid_keep {r : Ref sig .tc} (h1 : r ∉ wr_1) (h11 : r ∉ wr_11) : afterMid V (Proc.devRef .tc r) = V (Proc.devRef .tc r) := by
  show after (hostOps1_1 (F := Ideal)) (after (hostOps1 (F := Ideal)) V) _ = _
  rw [keep_11 _ h11, keep_1 _ h1]

end Cert.KernelIdeal.HostValue

end
-- ==== Proof.KernelRegions.lean ====
/-
  What the two launches of the row-blocked product leave in their output arrays, for any contents `V` of the buffers
  when the launch is entered: grid point t multiplies rows 5000·t … 5000·t + 4999 of the left array (cast to bf16 and
  back, the identity on the extended reals) by the whole right array into a zero accumulator and writes rows
  5000·t … 5000·t + 4999 of the output. An entry of a product depends on one row of the left operand only, so each
  block written is the same rows of the whole product, and the ten blocks tile the 50000 rows: the output array ends
  holding the product of the two whole arrays.
-/
import proofs.«169060_j72971494359297_1_alg».proof.Proof.Gen.KernelIdeal.Frame
import proofs.«169060_j72971494359297_1_alg».proof.Proof.LibMatProd
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd

variable (V : (c : Dev nD) → (b : Ref sig .tc) → Buf (Elt Ideal) ((c : Thread nD τ).loc b))

theorem origin2 : (![0, 0] : Fin 2 → Nat) = fun _ => 0 := funext fun a => by fin_cases a <;> rfl

/-! ## The first launch: [50000, 256] by [256, 256] -/

/-- The body's one stored value is the product of the two loaded blocks. -/
theorem pay0_eq (x0 : Vec Ideal S5000x256 .f32) (x1 : Vec Ideal S256x256 .f32) : k0_pay1 x0 x1 = matProd x0 x1 := by
  unfold k0_pay1
  exact matmul_zero_eq_matProd dot_S5000x256_S256x256_S5000x256_1_0_0_1_n_n rfl rfl rfl rfl rfl rfl none _ _

/-- The printed index maps over the ten grid points: the left operand's and the output's row-block number is the
    point's number, every other block number is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 5000·t … of the whole product, read through the output's block. -/
theorem flushed0_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero origin2]
  simp only [View.ld_unit_zero (S := S5000x256) origin2, View.ld_unit_zero (S := S256x256) origin2]
  rw [pay0_eq]
  obtain ⟨e0, e1, e2, e3, e4, e5⟩ := idx_facts0 t
  have ht : t.val < 10 := lt_of_lt_of_eq t.isLt N_0
  funext j
  obtain ⟨y, b, rfl⟩ : ∃ (y : Fin 5000) (b : Fin 256), j = ix2 y b := ⟨j 0, j 1, eq_ix2 (n0 := 5000) (n1 := 256) j⟩
  show matProd (iblk0 V c 0 t) (iblk0 V c 1 t) (ix2 y b)
    = matProd (V c main_arg0) (V c main_arg2) (((cfg0.win 2).blk t).view.emb (ix2 y b))
  have hy : y.val < 5000 := y.isLt
  have hrow : ((cfg0.win 2).blk t).view.emb (ix2 y b) = ix2 (⟨t.val * 5000 + y.val, by omega⟩ : Fin 50000) b := by
    funext a; apply Fin.ext
    match a with
    | ⟨0, _⟩ => show win0_2.index t (0 : Fin 2) * 5000 + 1 * y.val = t.val * 5000 + y.val; omega
    | ⟨1, _⟩ => show win0_2.index t (1 : Fin 2) * 256 + 1 * b.val = b.val; omega
  rw [hrow]
  refine matProd_block _ _ _ _ y b _ b (fun q => ?_) (fun q => ?_)
  · show V c main_arg0 (((cfg0.win 0).blk t).view.emb (ix2 y q)) = V c main_arg0 (ix2 (⟨t.val * 5000 + y.val, by omega⟩ : Fin 50000) q)
    refine congrArg (V c main_arg0) ?_
    funext a; apply Fin.ext
    match a with
    | ⟨0, _⟩ => show win0_0.index t (0 : Fin 2) * 5000 + 1 * y.val = t.val * 5000 + y.val; omega
    | ⟨1, _⟩ => show win0_0.index t (1 : Fin 2) * 256 + 1 * q.val = q.val; omega
  · show V c main_arg2 (((cfg0.win 1).blk t).view.emb (ix2 q b)) = V c main_arg2 (ix2 q b)
    refine congrArg (V c main_arg2) ?_
    funext a; apply Fin.ext
    match a with
    | ⟨0, _⟩ => show win0_1.index t (0 : Fin 2) * 256 + 1 * q.val = q.val; omega
    | ⟨1, _⟩ => show win0_1.index t (1 : Fin 2) * 256 + 1 * b.val = b.val; omega

/-- An index of the output array is in point t's block iff its row is among rows 5000·t … 5000·t + 4999. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v31).slice (win0_2.rect t)).set ↔ _
  rw [View.set_slice_whole, Rect.mem_set_unit]
  exact Iff.rfl

/-- The ten blocks tile the rows: row r is in the block of point r / 5000. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 5000, lt_of_lt_of_eq (by omega : (i 0).val / 5000 < 10) N_0.symm⟩
  obtain ⟨e0, e1, e2, e3, e4, e5⟩ := idx_facts0 t
  have htv : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- THE FIRST LAUNCH'S OUTPUT ARRAY is the product of the two whole operand arrays as the launch finds them. -/
theorem array0 (c : Dev nD) : (dat0 V c).arrAt 2 cfg0.N = matProd (V c main_arg0) (V c main_arg2) :=
  (dat0 V c).arrAt_eq_of_cover 2 (matProd (V c main_arg0) (V c main_arg2)) (fun t _ => flushed0_eq V c t) cover0

/-! ## The second launch: [50000, 256] by [256, 128] -/

/-- The body's one stored value is the product of the two loaded blocks. -/
theorem pay1_eq (x0 : Vec Ideal S5000x256 .f32) (x1 : Vec Ideal S256x128 .f32) : k1_pay1 x0 x1 = matProd x0 x1 := by
  unfold k1_pay1
  rw [shapeCast_self]
  exact matmul_zero_eq_matProd dot_S5000x256_S256x128_S5000x128_1_0_0_1_n_n rfl rfl rfl rfl rfl rfl none _ _

/-- The printed index maps over the ten grid points: the left operand's and the output's row-block number is the
    point's number, every other block number is 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 5000·t … of the whole product, read through the output's block. -/
theorem flushed1_eq (c : Dev nD) (t : Fin cfg1.N) :
    (dat1 V c).flushed 2 t = ((cfg1.win 2).blk t).view.read (Elt Ideal) (matProd (V c main_v48) (V c main_arg4)) := by
  show (cfg1.win 2).cut (grid1.coords t) ((dat1 V c).after 2 t) = _
  rw [after1_2]
  unfold out1_2
  rw [View.canon_unit_zero origin2]
  simp only [View.ld_unit_zero (S := S5000x256) origin2, View.ld_unit_zero (S := S256x128) origin2]
  rw [pay1_eq]
  obtain ⟨e0, e1, e2, e3, e4, e5⟩ := idx_facts1 t
  have ht : t.val < 10 := lt_of_lt_of_eq t.isLt N_1
  funext j
  obtain ⟨y, b, rfl⟩ : ∃ (y : Fin 5000) (b : Fin 128), j = ix2 y b := ⟨j 0, j 1, eq_ix2 (n0 := 5000) (n1 := 128) j⟩
  show matProd (iblk1 V c 0 t) (iblk1 V c 1 t) (ix2 y b)
    = matProd (V c main_v48) (V c main_arg4) (((cfg1.win 2).blk t).view.emb (ix2 y b))
  have hy : y.val < 5000 := y.isLt
  have hrow : ((cfg1.win 2).blk t).view.emb (ix2 y b) = ix2 (⟨t.val * 5000 + y.val, by omega⟩ : Fin 50000) b := by
    funext a; apply Fin.ext
    match a with
    | ⟨0, _⟩ => show win1_2.index t (0 : Fin 2) * 5000 + 1 * y.val = t.val * 5000 + y.val; omega
    | ⟨1, _⟩ => show win1_2.index t (1 : Fin 2) * 128 + 1 * b.val = b.val; omega
  rw [hrow]
  refine matProd_block _ _ _ _ y b _ b (fun q => ?_) (fun q => ?_)
  · show V c main_v48 (((cfg1.win 0).blk t).view.emb (ix2 y q)) = V c main_v48 (ix2 (⟨t.val * 5000 + y.val, by omega⟩ : Fin 50000) q)
    refine congrArg (V c main_v48) ?_
    funext a; apply Fin.ext
    match a with
    | ⟨0, _⟩ => show win1_0.index t (0 : Fin 2) * 5000 + 1 * y.val = t.val * 5000 + y.val; omega
    | ⟨1, _⟩ => show win1_0.index t (1 : Fin 2) * 256 + 1 * q.val = q.val; omega
  · show V c main_arg4 (((cfg1.win 1).blk t).view.emb (ix2 q b)) = V c main_arg4 (ix2 q b)
    refine congrArg (V c main_arg4) ?_
    funext a; apply Fin.ext
    match a with
    | ⟨0, _⟩ => show win1_1.index t (0 : Fin 2) * 256 + 1 * q.val = q.val; omega
    | ⟨1, _⟩ => show win1_1.index t (1 : Fin 2) * 128 + 1 * b.val = b.val; omega

/-- An index of the output array is in point t's block iff its row is among rows 5000·t … 5000·t + 4999. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- The ten blocks tile the rows: row r is in the block of point r / 5000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, lt_of_lt_of_eq (by omega : (i 0).val / 5000 < 10) N_1.symm⟩
  obtain ⟨e0, e1, e2, e3, e4, e5⟩ := idx_facts1 t
  have htv : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE SECOND LAUNCH'S OUTPUT ARRAY is the product of the two whole operand arrays as the launch finds them. -/
theorem array1 (c : Dev nD) : (dat1 V c).arrAt 2 cfg1.N = matProd (V c main_v48) (V c main_arg4) :=
  (dat1 V c).arrAt_eq_of_cover 2 (matProd (V c main_v48) (V c main_arg4)) (fun t _ => flushed1_eq V c t) cover1

end Cert.KernelIdeal.Regions

end
-- ==== Proof.KernelValue.lean ====
/-
  The idealized kernel's result as a function of its arguments, by walking the buffers' contents through the program's
  segments (`Gen.W0` … `Gen.W8`): the host operations before the first launch leave the endpoint lists and the edge
  weights; the first launch leaves x · W1 in its output array; the host operations between the launches leave
  relu (layer₁ (x · W1)); the second launch leaves that times W2; and the host operations after it the second layer.
  Nothing in between touches what a later segment reads. So the result buffer ends holding the network of
  Proof/GcnSpec.lean over the two whole-array products.
-/
import proofs.«169060_j72971494359297_1_alg».proof.Proof.KernelRun
import proofs.«169060_j72971494359297_1_alg».proof.Proof.KernelHost
import proofs.«169060_j72971494359297_1_alg».proof.Proof.KernelRegions

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo
open Cert.Gcn Cert.Lib.MatProd Cert.KernelIdeal.HostValue Cert.KernelIdeal.Regions

variable (m : (ℓ : Loc nD τ sig) → Buf (Elt Ideal) ℓ) (ρ : Dev nD → PrngReg) (c : Dev nD)

/-! ## When the first launch is entered -/

theorem W3_src : W3 m ρ c (Proc.devRef .tc main_v3) = (srcOf (m ((c.tc : Thread nD τ).loc main_arg1))) := pre_src (W0 m ρ c)
theorem W3_dst : W3 m ρ c (Proc.devRef .tc main_v6) = (dstOf (m ((c.tc : Thread nD τ).loc main_arg1))) := pre_dst (W0 m ρ c)
theorem W3_norm : W3 m ρ c (Proc.devRef .tc main_v30) = (normOf (srcOf (m ((c.tc : Thread nD τ).loc main_arg1))) (dstOf (m ((c.tc : Thread nD τ).loc main_arg1)))) := pre_norm (W0 m ρ c)
theorem W3_arg0 : W3 m ρ c (Proc.devRef .tc main_arg0) = (m ((c.tc : Thread nD τ).loc main_arg0)) :=
  pre_keep (W0 m ρ c) (by decide) (by decide) (by decide)
theorem W3_arg2 : W3 m ρ c (Proc.devRef .tc main_arg2) = (m ((c.tc : Thread nD τ).loc main_arg2)) :=
  pre_keep (W0 m ρ c) (by decide) (by decide) (by decide)
theorem W3_arg3 : W3 m ρ c (Proc.devRef .tc main_arg3) = (m ((c.tc : Thread nD τ).loc main_arg3)) :=
  pre_keep (W0 m ρ c) (by decide) (by decide) (by decide)
theorem W3_arg4 : W3 m ρ c (Proc.devRef .tc main_arg4) = (m ((c.tc : Thread nD τ).loc main_arg4)) :=
  pre_keep (W0 m ρ c) (by decide) (by decide) (by decide)
theorem W3_arg5 : W3 m ρ c (Proc.devRef .tc main_arg5) = (m ((c.tc : Thread nD τ).loc main_arg5)) :=
  pre_keep (W0 m ρ c) (by decide) (by decide) (by decide)

/-! ## When the first launch has returned: its output array holds x · W1 -/

theorem W4_src : W4 m ρ c (Proc.devRef .tc main_v3) = (srcOf (m ((c.tc : Thread nD τ).loc main_arg1))) := (W4_of_ne m ρ c main_v3 (by decide)).trans (W3_src m ρ c)
theorem W4_dst : W4 m ρ c (Proc.devRef .tc main_v6) = (dstOf (m ((c.tc : Thread nD τ).loc main_arg1))) := (W4_of_ne m ρ c main_v6 (by decide)).trans (W3_dst m ρ c)
theorem W4_norm : W4 m ρ c (Proc.devRef .tc main_v30) = (normOf (srcOf (m ((c.tc : Thread nD τ).loc main_arg1))) (dstOf (m ((c.tc : Thread nD τ).loc main_arg1)))) := (W4_of_ne m ρ c main_v30 (by decide)).trans (W3_norm m ρ c)
theorem W4_arg3 : W4 m ρ c (Proc.devRef .tc main_arg3) = (m ((c.tc : Thread nD τ).loc main_arg3)) :=
  (W4_of_ne m ρ c main_arg3 (by decide)).trans (W3_arg3 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)
theorem W4_prod : W4 m ρ c (Proc.devRef .tc main_v31) = (matProd (m ((c.tc : Thread nD τ).loc main_arg0)) (m ((c.tc : Thread nD τ).loc main_arg2))) := by
  refine (W4_arr m ρ c 2).trans ((array0 (V3 m ρ) c).trans ?_)
  show matProd (W3 m ρ c (Proc.devRef .tc main_arg0)) (W3 m ρ c (Proc.devRef .tc main_arg2)) = _
  rw [W3_arg0, W3_arg2]

/-! ## When the second launch is entered: relu (layer₁ (x · W1)) -/

theorem W6_src : W6 m ρ c (Proc.devRef .tc main_v3) = (srcOf (m ((c.tc : Thread nD τ).loc main_arg1))) := (mid_keep (W4 m ρ c) (by decide) (by decide)).trans (W4_src m ρ c)
theorem W6_dst : W6 m ρ c (Proc.devRef .tc main_v6) = (dstOf (m ((c.tc : Thread nD τ).loc main_arg1))) := (mid_keep (W4 m ρ c) (by decide) (by decide)).trans (W4_dst m ρ c)
theorem W6_norm : W6 m ρ c (Proc.devRef .tc main_v30) = (normOf (srcOf (m ((c.tc : Thread nD τ).loc main_arg1))) (dstOf (m ((c.tc : Thread nD τ).loc main_arg1)))) := (mid_keep (W4 m ρ c) (by decide) (by decide)).trans (W4_norm m ρ c)
theorem W6_arg4 : W6 m ρ c (Proc.devRef .tc main_arg4) = (m ((c.tc : Thread nD τ).loc main_arg4)) :=
  (mid_keep (W4 m ρ c) (by decide) (by decide)).trans (W4_arg4 m ρ c)
theorem W6_arg5 : W6 m ρ c (Proc.devRef .tc main_arg5) = (m ((c.tc : Thread nD τ).loc main_arg5)) :=
  (mid_keep (W4 m ρ c) (by decide) (by decide)).trans (W4_arg5 m ρ c)
theorem W6_hidden : W6 m ρ c (Proc.devRef .tc main_v48) = (hidden (srcOf (m ((c.tc : Thread nD τ).loc main_arg1))) (dstOf (m ((c.tc : Thread nD τ).loc main_arg1))) (normOf (srcOf (m ((c.tc : Thread nD τ).loc main_arg1))) (dstOf (m ((c.tc : Thread nD τ).loc main_arg1)))) (matProd (m ((c.tc : Thread nD τ).loc main_arg0)) (m ((c.tc : Thread nD τ).loc main_arg2))) (m ((c.tc : Thread nD τ).loc main_arg3))) := by
  refine (mid_hidden (W4 m ρ c)).trans ?_
  rw [W4_src, W4_dst, W4_norm, W4_prod, W4_arg3]

/-! ## When the second launch has returned: its output array holds that times W2 -/

theorem W7_src : W7 m ρ c (Proc.devRef .tc main_v3) = (srcOf (m ((c.tc : Thread nD τ).loc main_arg1))) := (W7_of_ne m ρ c main_v3 (by decide)).trans (W6_src m ρ c)
theorem W7_dst : W7 m ρ c (Proc.devRef .tc main_v6) = (dstOf (m ((c.tc : Thread nD τ).loc main_arg1))) := (W7_of_ne m ρ c main_v6 (by decide)).trans (W6_dst m ρ c)
theorem W7_norm : W7 m ρ c (Proc.devRef .tc main_v30) = (normOf (srcOf (m ((c.tc : Thread nD τ).loc main_arg1))) (dstOf (m ((c.tc : Thread nD τ).loc main_arg1)))) := (W7_of_ne m ρ c main_v30 (by decide)).trans (W6_norm m ρ c)
theorem W7_arg5 : W7 m ρ c (Proc.devRef .tc main_arg5) = (m ((c.tc : Thread nD τ).loc main_arg5)) := (W7_of_ne m ρ c main_arg5 (by decide)).trans (W6_arg5 m ρ c)
theorem W7_prod : W7 m ρ c (Proc.devRef .tc main_v49) = (matProd (hidden (srcOf (m ((c.tc : Thread nD τ).loc main_arg1))) (dstOf (m ((c.tc : Thread nD τ).loc main_arg1))) (normOf (srcOf (m ((c.tc : Thread nD τ).loc main_arg1))) (dstOf (m ((c.tc : Thread nD τ).loc main_arg1)))) (matProd (m ((c.tc : Thread nD τ).loc main_arg0)) (m ((c.tc : Thread nD τ).loc main_arg2))) (m ((c.tc : Thread nD τ).loc main_arg3))) (m ((c.tc : Thread nD τ).loc main_arg4))) := by
  refine (W7_arr m ρ c 2).trans ((array1 (V6 m ρ) c).trans ?_)
  show matProd (W6 m ρ c (Proc.devRef .tc main_v48)) (W6 m ρ c (Proc.devRef .tc main_arg4)) = _
  rw [W6_hidden, W6_arg4]

/-! ## At the return -/

/-- THE RESULT BUFFER at the end of the walk: the network over the two whole-array products. -/
theorem result_eq : W8 m ρ c (Proc.devRef .tc main_v65) = conv128 (srcOf (m ((c.tc : Thread nD τ).loc main_arg1))) (dstOf (m ((c.tc : Thread nD τ).loc main_arg1))) (normOf (srcOf (m ((c.tc : Thread nD τ).loc main_arg1))) (dstOf (m ((c.tc : Thread nD τ).loc main_arg1)))) (matProd (hidden (srcOf (m ((c.tc : Thread nD τ).loc main_arg1))) (dstOf (m ((c.tc : Thread nD τ).loc main_arg1))) (normOf (srcOf (m ((c.tc : Thread nD τ).loc main_arg1))) (dstOf (m ((c.tc : Thread nD τ).loc main_arg1)))) (matProd (m ((c.tc : Thread nD τ).loc main_arg0)) (m ((c.tc : Thread nD τ).loc main_arg2))) (m ((c.tc : Thread nD τ).loc main_arg3))) (m ((c.tc : Thread nD τ).loc main_arg4))) (m ((c.tc : Thread nD τ).loc main_arg5)) := by
  show after (hostOps2 (F := Ideal)) (W7 m ρ c) (Proc.devRef .tc main_v65) = _
  rw [tail_out, W7_src, W7_dst, W7_norm, W7_prod, W7_arg5]

end Cert.KernelIdeal.Walk

end
-- ==== Proof.RefRun.lean ====
/-
  The reference program's run, read list by list. Its @main is a straight line of host operations, cut here where the
  idealized kernel's is cut by its launches and calls: the endpoint lists, the degree table and its two tests; the
  select of jnp.where; the edge weights; the first dense product with the first layer's aggregation; the relu; the
  second dense product with the second layer's aggregation. Each list is one function of the buffers it finds
  (Proof/GcnSpec.lean) and keeps the buffers it does not write, so after the run the result buffer holds
      conv128 src dst norm (hidden src dst norm (x · W1) b1 · W2) b2
  with the two products the host's dot_general, and the argument arrays are as launched.
-/
import proofs.«169060_j72971494359297_1_alg».proof.Proof.Gen.ReferenceIdeal
import proofs.«169060_j72971494359297_1_alg».proof.Proof.GcnSpec
import Idealize.ShloMosaic.Lib.StableHlo.Run
import Idealize.ShloMosaic.Lib.Pipeline.Frame

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Gcn

variable {F : FTy → Type} [FloatOps F]

/-! ## @main as a list of operations -/

/-- The endpoint lists, the degree table, and its two tests. -/
abbrev rPre0 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    unary main_cst_2 main_v14 (broadcastInDim S50000 ![] bcast_S_S50000 : (⟨S_, .f32⟩ : BufTy).Contents (Elt F) → (⟨S50000, .f32⟩ : BufTy).Contents (Elt F)) ]

/-- jnp.where's select, in the call's place. -/
abbrev rWhere : List (HloOp τ sig (Elt F)) :=
  [ TRef.ternary (TRef.of (T := ⟨S50000, .i1⟩) main_v12) (TRef.of (T := ⟨S50000, .f32⟩) main_v13) (TRef.of (T := ⟨S50000, .f32⟩) main_v14) (TRef.of (T := ⟨S50000, .f32⟩) main_v15) select ]

/-- The edge weights. -/
abbrev rPre2 : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]

/-- The first product and the first layer's aggregation. -/
abbrev rMid : List (HloOp τ sig (Elt F)) :=
  [ binary main_arg0 main_arg2 main_v31 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v30 main_v32 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v31 main_v38 main_v39 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v32 main_v40 (broadcastInDim S850000x256 ![0, 1] bcast_S850000x1_S850000x256_0_1 : (⟨S850000x1, .f32⟩ : BufTy).Contents (Elt F) → (⟨S850000x256, .f32⟩ : BufTy).Contents (Elt F)),
    binary main_v40 main_v39 main_v41 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v42 (broadcastInDim S50000x256 ![] bcast_S_S50000x256 : (⟨S_, .f32⟩ : BufTy).Contents (Elt F) → (⟨S50000x256, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)) ]

/-- relu's three operations, in the call's place. -/
abbrev rRelu : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v47) (TRef.of (T := ⟨S50000x256, .f32⟩) main_call1_v0) (TRef.of (T := ⟨S50000x256, .f32⟩) main_v48) maximumf ]

/-- The second product and the second layer's aggregation. -/
abbrev rTail : List (HloOp τ sig (Elt F)) :=
  [ binary main_v48 main_arg4 main_v49 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_v30 main_v50 (broadcastInDim S850000x1 ![0] bcast_S850000_S850000x1_0 : (⟨S850000, .f32⟩ : BufTy).Contents (Elt F) → (⟨S850000x1, .f32⟩ : BufTy).Contents (Elt F)),
    nullary main_c_9 (constantI S_ 32 0#32),
    unary main_c_9 main_v51 (broadcastInDim S850000 ![] bcast_S_S850000 : (⟨S_, .i32⟩ : BufTy).Contents (Elt F) → (⟨S850000, .i32⟩ : BufTy).Contents (Elt F)),
    binary main_v3 main_v51 main_v52 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v53 (broadcastInDim S850000 ![] bcast_S_S850000 : (⟨S_, .i32⟩ : BufTy).Contents (Elt F) → (⟨S850000, .i32⟩ : BufTy).Contents (Elt F)),
    binary main_v3 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v49 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v50 main_v58 (broadcastInDim S850000x128 ![0, 1] bcast_S850000x1_S850000x128_0_1 : (⟨S850000x1, .f32⟩ : BufTy).Contents (Elt F) → (⟨S850000x128, .f32⟩ : BufTy).Contents (Elt F)),
    binary main_v58 main_v57 main_v59 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v60 (broadcastInDim S50000x128 ![] bcast_S_S50000x128 : (⟨S_, .f32⟩ : BufTy).Contents (Elt F) → (⟨S50000x128, .f32⟩ : BufTy).Contents (Elt F)),
    unary main_v6 main_v61 (broadcastInDim S850000x1 ![0] bcast_S850000_S850000x1_0 : (⟨S850000, .i32⟩ : BufTy).Contents (Elt F) → (⟨S850000x1, .i32⟩ : BufTy).Contents (Elt F)),
    ternary main_v60 main_v61 main_v59 main_v62 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)) ]

/-- @main's operations, in order. -/
abbrev ops : List (HloOp τ sig (Elt F)) := rPre0 ++ (rWhere ++ (rPre2 ++ (rMid ++ (rRelu ++ rTail))))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem rPre0_sub : (rPre0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub ..⟩
theorem rPre0_fresh : (rPre0 : List (HloOp τ sig (Elt F))).Forall fun op => op.fresh = ∅ := by
  simp only [List.Forall]; repeat' constructor
theorem rWhere_sub : (rWhere : List (HloOp τ sig (Elt F))).Forall fun op => op.bufs ⊆ tcRefs τ sig :=
  ternary_bufs_sub ..
theorem rWhere_fresh : (rWhere : List (HloOp τ sig (Elt F))).Forall fun op => op.fresh = ∅ := by
  simp only [List.Forall]; repeat' constructor
theorem rPre2_sub : (rPre2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem rPre2_fresh : (rPre2 : List (HloOp τ sig (Elt F))).Forall fun op => op.fresh = ∅ := by
  simp only [List.Forall]; repeat' constructor
theorem rMid_sub : (rMid : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩
theorem rMid_fresh : (rMid : List (HloOp τ sig (Elt F))).Forall fun op => op.fresh = ∅ := by
  simp only [List.Forall]; repeat' constructor
theorem rRelu_sub : (rRelu : List (HloOp τ sig (Elt F))).Forall fun op => op.bufs ⊆ tcRefs τ sig :=
  ⟨nullary_bufs_sub .., unary_bufs_sub .., binary_bufs_sub ..⟩
theorem rRelu_fresh : (rRelu : List (HloOp τ sig (Elt F))).Forall fun op => op.fresh = ∅ := by
  simp only [List.Forall]; repeat' constructor
theorem rTail_sub : (rTail : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩
theorem rTail_fresh : (rTail : List (HloOp τ sig (Elt F))).Forall fun op => op.fresh = ∅ := by
  simp only [List.Forall]; repeat' constructor

theorem ops_sub : (ops : List (HloOp τ sig (Elt F))).Forall fun op => op.bufs ⊆ tcRefs τ sig :=
  List.forall_append.mpr ⟨rPre0_sub, List.forall_append.mpr ⟨rWhere_sub, List.forall_append.mpr ⟨rPre2_sub,
    List.forall_append.mpr ⟨rMid_sub, List.forall_append.mpr ⟨rRelu_sub, rTail_sub⟩⟩⟩⟩⟩
theorem ops_fresh : (ops : List (HloOp τ sig (Elt F))).Forall fun op => op.fresh = ∅ :=
  List.forall_append.mpr ⟨rPre0_fresh, List.forall_append.mpr ⟨rWhere_fresh, List.forall_append.mpr ⟨rPre2_fresh,
    List.forall_append.mpr ⟨rMid_fresh, List.forall_append.mpr ⟨rRelu_fresh, rTail_fresh⟩⟩⟩⟩⟩

/-! ## What each list writes, what it keeps, and its results -/

section Parts
variable (V : Valuation τ sig (Elt Ideal))

/-- The buffers the operations of this list write. -/
abbrev wr_rPre0 : List (Ref sig .tc) := [main_v0, main_v1, main_v2, main_v3, main_v4, main_v5, main_v6, main_cst, main_v7, main_cst_0, main_v8, main_v9, main_v10, main_cst_1, main_v11, main_v12, main_v13, main_cst_2, main_v14]
set_option maxHeartbeats 8000000 in
theorem writes_rPre0 : (rPre0 (F := Ideal)).Forall fun op => op.writes ⊆ ((wr_rPre0).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer the list does not write keeps its contents. -/
theorem keep_rPre0 {r : Ref sig .tc} (h : r ∉ wr_rPre0) : after (rPre0 (F := Ideal)) V (Proc.devRef .tc r) = V (Proc.devRef .tc r) :=
  after_of_writes_sub _ V writes_rPre0 h

/-- The buffers the operations of this list write. -/
abbrev wr_rWhere : List (Ref sig .tc) := [main_v15]
set_option maxHeartbeats 8000000 in
theorem writes_rWhere : (rWhere (F := Ideal)).Forall fun op => op.writes ⊆ ((wr_rWhere).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer the list does not write keeps its contents. -/
theorem keep_rWhere {r : Ref sig .tc} (h : r ∉ wr_rWhere) : after (rWhere (F := Ideal)) V (Proc.devRef .tc r) = V (Proc.devRef .tc r) :=
  after_of_writes_sub _ V writes_rWhere h

/-- The buffers the operations of this list write. -/
abbrev wr_rPre2 : List (Ref sig .tc) := [main_c, main_v16, main_v17, main_c_3, main_v18, main_v19, main_v20, main_v21, main_v22, main_c_4, main_v23, main_v24, main_c_5, main_v25, main_v26, main_v27, main_v28, main_v29, main_v30]
set_option maxHeartbeats 8000000 in
theorem writes_rPre2 : (rPre2 (F := Ideal)).Forall fun op => op.writes ⊆ ((wr_rPre2).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer the list does not write keeps its contents. -/
theorem keep_rPre2 {r : Ref sig .tc} (h : r ∉ wr_rPre2) : after (rPre2 (F := Ideal)) V (Proc.devRef .tc r) = V (Proc.devRef .tc r) :=
  after_of_writes_sub _ V writes_rPre2 h

/-- The buffers the operations of this list write. -/
abbrev wr_rMid : List (Ref sig .tc) := [main_v31, main_v32, main_c_6, main_v33, main_v34, main_c_7, main_v35, main_v36, main_v37, main_v38, main_v39, main_v40, main_v41, main_cst_8, main_v42, main_v43, main_v44, main_v45, main_v46, main_v47]
set_option maxHeartbeats 8000000 in
theorem writes_rMid : (rMid (F := Ideal)).Forall fun op => op.writes ⊆ ((wr_rMid).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer the list does not write keeps its contents. -/
theorem keep_rMid {r : Ref sig .tc} (h : r ∉ wr_rMid) : after (rMid (F := Ideal)) V (Proc.devRef .tc r) = V (Proc.devRef .tc r) :=
  after_of_writes_sub _ V writes_rMid h

/-- The buffers the operations of this list write. -/
abbrev wr_rRelu : List (Ref sig .tc) := [main_call1_cst, main_call1_v0, main_v48]
set_option maxHeartbeats 8000000 in
theorem writes_rRelu : (rRelu (F := Ideal)).Forall fun op => op.writes ⊆ ((wr_rRelu).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer the list does not write keeps its contents. -/
theorem keep_rRelu {r : Ref sig .tc} (h : r ∉ wr_rRelu) : after (rRelu (F := Ideal)) V (Proc.devRef .tc r) = V (Proc.devRef .tc r) :=
  after_of_writes_sub _ V writes_rRelu h

/-- The buffers the operations of this list write. -/
abbrev wr_rTail : List (Ref sig .tc) := [main_v49, main_v50, main_c_9, main_v51, main_v52, main_c_10, main_v53, main_v54, main_v55, main_v56, main_v57, main_v58, main_v59, main_cst_11, main_v60, main_v61, main_v62, main_v63, main_v64, main_v65]
set_option maxHeartbeats 8000000 in
theorem writes_rTail : (rTail (F := Ideal)).Forall fun op => op.writes ⊆ ((wr_rTail).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer the list does not write keeps its contents. -/
theorem keep_rTail {r : Ref sig .tc} (h : r ∉ wr_rTail) : after (rTail (F := Ideal)) V (Proc.devRef .tc r) = V (Proc.devRef .tc r) :=
  after_of_writes_sub _ V writes_rTail h

set_option maxHeartbeats 8000000 in
theorem r0_src : after (rPre0 (F := Ideal)) V (Proc.devRef .tc main_v3) = srcOf (V (Proc.devRef .tc main_arg1)) := by
  after_results_simp <;> rfl

set_option maxHeartbeats 8000000 in
theorem r0_dst : after (rPre0 (F := Ideal)) V (Proc.devRef .tc main_v6) = dstOf (V (Proc.devRef .tc main_arg1)) := by
  after_results_simp <;> rfl

set_option maxHeartbeats 8000000 in
theorem r0_pos : after (rPre0 (F := Ideal)) V (Proc.devRef .tc main_v12) = degPos (dstOf (V (Proc.devRef .tc main_arg1))) := by
  after_results_simp <;> rfl

set_option maxHeartbeats 8000000 in
theorem r0_rsqrt : after (rPre0 (F := Ideal)) V (Proc.devRef .tc main_v13) = degRsqrt (dstOf (V (Proc.devRef .tc main_arg1))) := by
  after_results_simp <;> rfl

set_option maxHeartbeats 8000000 in
theorem r0_zero : after (rPre0 (F := Ideal)) V (Proc.devRef .tc main_v14) = zeroNodes := by
  after_results_simp <;> rfl

set_option maxHeartbeats 8000000 in
theorem r01_dis : after (rWhere (F := Ideal)) V (Proc.devRef .tc main_v15) = select (V (Proc.devRef .tc main_v12)) (V (Proc.devRef .tc main_v13)) (V (Proc.devRef .tc main_v14)) := by
  after_results_simp <;> rfl

set_option maxHeartbeats 8000000 in
theorem r02_norm : after (rPre2 (F := Ideal)) V (Proc.devRef .tc main_v30) = normFrom (V (Proc.devRef .tc main_v15)) (V (Proc.devRef .tc main_v3)) (V (Proc.devRef .tc main_v6)) := by
  after_results_simp <;> rfl

set_option maxHeartbeats 8000000 in
theorem r1_conv : after (rMid (F := Ideal)) V (Proc.devRef .tc main_v47) = conv256 (V (Proc.devRef .tc main_v3)) (V (Proc.devRef .tc main_v6)) (V (Proc.devRef .tc main_v30)) (Host.dotGeneral (F := Ideal) (φ₁ := .f32) (φ₂ := .f32) dot_S50000x256_S256x256_S50000x256_1_0_0_1_n_n none (V (Proc.devRef .tc main_arg0)) (V (Proc.devRef .tc main_arg2))) (V (Proc.devRef .tc main_arg3)) := by
  after_results_simp <;> rfl

set_option maxHeartbeats 8000000 in
theorem r11_relu : after (rRelu (F := Ideal)) V (Proc.devRef .tc main_v48) = relu256 (V (Proc.devRef .tc main_v47)) := by
  after_results_simp <;> rfl

set_option maxHeartbeats 8000000 in
theorem r2_out : after (rTail (F := Ideal)) V (Proc.devRef .tc main_v65) = conv128 (V (Proc.devRef .tc main_v3)) (V (Proc.devRef .tc main_v6)) (V (Proc.devRef .tc main_v30)) (Host.dotGeneral (F := Ideal) (φ₁ := .f32) (φ₂ := .f32) dot_S50000x256_S256x128_S50000x128_1_0_0_1_n_n none (V (Proc.devRef .tc main_v48)) (V (Proc.devRef .tc main_arg4))) (V (Proc.devRef .tc main_arg5)) := by
  after_results_simp <;> rfl

/-- The whole line as the six lists one after the other. -/
theorem after_ops : after (ops (F := Ideal)) V = after (rTail (F := Ideal)) (after (rRelu (F := Ideal)) (after (rMid (F := Ideal)) (after (rPre2 (F := Ideal)) (after (rWhere (F := Ideal)) (after (rPre0 (F := Ideal)) V))))) := by
  show after (rPre0 (F := Ideal) ++ (rWhere (F := Ideal) ++ (rPre2 (F := Ideal) ++ (rMid (F := Ideal) ++ (rRelu (F := Ideal) ++ rTail (F := Ideal)))))) V = _
  rw [after_append, after_append, after_append, after_append, after_append]

/-- An argument array is written by none of the lists. -/
theorem keep_all {r : Ref sig .tc} (h0 : r ∉ wr_rPre0) (h1 : r ∉ wr_rWhere) (h2 : r ∉ wr_rPre2) (h3 : r ∉ wr_rMid)
    (h4 : r ∉ wr_rRelu) (h5 : r ∉ wr_rTail) : after (ops (F := Ideal)) V (Proc.devRef .tc r) = V (Proc.devRef .tc r) := by
  rw [after_ops, keep_rTail _ h5, keep_rRelu _ h4, keep_rMid _ h3, keep_rPre2 _ h2, keep_rWhere _ h1, keep_rPre0 _ h0]

/-- THE RESULT: the network of Proof/GcnSpec.lean over the host's two dot_generals. -/
theorem result_eq : after (ops (F := Ideal)) V (Proc.devRef .tc main_v65)
    = conv128 (srcOf (V (Proc.devRef .tc main_arg1))) (dstOf (V (Proc.devRef .tc main_arg1))) (normOf (srcOf (V (Proc.devRef .tc main_arg1))) (dstOf (V (Proc.devRef .tc main_arg1))))
        (Host.dotGeneral (F := Ideal) (φ₁ := .f32) (φ₂ := .f32) dot_S50000x256_S256x128_S50000x128_1_0_0_1_n_n none (hidden (srcOf (V (Proc.devRef .tc main_arg1))) (dstOf (V (Proc.devRef .tc main_arg1))) (normOf (srcOf (V (Proc.devRef .tc main_arg1))) (dstOf (V (Proc.devRef .tc main_arg1))))
          (Host.dotGeneral (F := Ideal) (φ₁ := .f32) (φ₂ := .f32) dot_S50000x256_S256x256_S50000x256_1_0_0_1_n_n none (V (Proc.devRef .tc main_arg0)) (V (Proc.devRef .tc main_arg2))) (V (Proc.devRef .tc main_arg3))) (V (Proc.devRef .tc main_arg4)))
        (V (Proc.devRef .tc main_arg5)) := by
  rw [after_ops, r2_out]
  -- the second layer's operands, read back through the relu and the first layer's lists
  rw [keep_rRelu (r := main_v3) _ (by decide), keep_rMid (r := main_v3) _ (by decide),
    keep_rRelu (r := main_v6) _ (by decide), keep_rMid (r := main_v6) _ (by decide),
    keep_rRelu (r := main_v30) _ (by decide), keep_rMid (r := main_v30) _ (by decide),
    keep_rRelu (r := main_arg4) _ (by decide), keep_rMid (r := main_arg4) _ (by decide),
    keep_rRelu (r := main_arg5) _ (by decide), keep_rMid (r := main_arg5) _ (by decide),
    r11_relu, r1_conv]
  -- the endpoint lists and the edge weights
  rw [r02_norm, r01_dis, keep_rWhere (r := main_v3) _ (by decide), keep_rWhere (r := main_v6) _ (by decide),
    keep_rPre2 (r := main_v3) _ (by decide), keep_rPre2 (r := main_v6) _ (by decide),
    r0_pos, r0_rsqrt, r0_zero, r0_src, r0_dst]
  -- the arguments the later lists read
  rw [keep_rPre2 (r := main_arg0) _ (by decide), keep_rWhere (r := main_arg0) _ (by decide), keep_rPre0 (r := main_arg0) _ (by decide),
    keep_rPre2 (r := main_arg2) _ (by decide), keep_rWhere (r := main_arg2) _ (by decide), keep_rPre0 (r := main_arg2) _ (by decide),
    keep_rPre2 (r := main_arg3) _ (by decide), keep_rWhere (r := main_arg3) _ (by decide), keep_rPre0 (r := main_arg3) _ (by decide),
    keep_rPre2 (r := main_arg4) _ (by decide), keep_rWhere (r := main_arg4) _ (by decide), keep_rPre0 (r := main_arg4) _ (by decide),
    keep_rPre2 (r := main_arg5) _ (by decide), keep_rWhere (r := main_arg5) _ (by decide), keep_rPre0 (r := main_arg5) _ (by decide)]
  rfl

end Parts

/-! ## The run -/

/-- Every weakly fair execution of the reference terminates without a fault, with the result buffer at the network of
    Proof/GcnSpec.lean over the host's two dot_generals of the launch contents, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65)
        = conv128 (srcOf (m ((c.tc : Thread nD τ).loc main_arg1))) (dstOf (m ((c.tc : Thread nD τ).loc main_arg1)))
            (normOf (srcOf (m ((c.tc : Thread nD τ).loc main_arg1))) (dstOf (m ((c.tc : Thread nD τ).loc main_arg1))))
            (Host.dotGeneral (F := Ideal) (φ₁ := .f32) (φ₂ := .f32) dot_S50000x256_S256x128_S50000x128_1_0_0_1_n_n none (hidden (srcOf (m ((c.tc : Thread nD τ).loc main_arg1))) (dstOf (m ((c.tc : Thread nD τ).loc main_arg1)))
              (normOf (srcOf (m ((c.tc : Thread nD τ).loc main_arg1))) (dstOf (m ((c.tc : Thread nD τ).loc main_arg1))))
              (Host.dotGeneral (F := Ideal) (φ₁ := .f32) (φ₂ := .f32) dot_S50000x256_S256x256_S50000x256_1_0_0_1_n_n none (m ((c.tc : Thread nD τ).loc main_arg0)) (m ((c.tc : Thread nD τ).loc main_arg2))) (m ((c.tc : Thread nD τ).loc main_arg3))) (m ((c.tc : Thread nD τ).loc main_arg4)))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq (launchContents m c)),
      (h c main_arg0).trans (keep_all (launchContents m c) (by decide) (by decide) (by decide) (by decide) (by decide) (by decide)),
      (h c main_arg1).trans (keep_all (launchContents m c) (by decide) (by decide) (by decide) (by decide) (by decide) (by decide)),
      (h c main_arg2).trans (keep_all (launchContents m c) (by decide) (by decide) (by decide) (by decide) (by decide) (by decide)),
      (h c main_arg3).trans (keep_all (launchContents m c) (by decide) (by decide) (by decide) (by decide) (by decide) (by decide)),
      (h c main_arg4).trans (keep_all (launchContents m c) (by decide) (by decide) (by decide) (by decide) (by decide) (by decide)),
      (h c main_arg5).trans (keep_all (launchContents m c) (by decide) (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.HandRun

end
-- ==== Proof.lean ====
/-
  A two-layer graph convolution (Proof/GcnSpec.lean): the kernel forms its two dense products x · W1 and h · W2 by a
  launch each — ten grid points, each the product of 5000 rows (cast to bf16 and back) with the whole weight array
  into a zero accumulator — where the reference applies the host's dot_general; every other operation of the two
  programs is the same host operation on the same operands.

  On the extended reals the cast is the identity, a product into zeros is the sum over the contracted coordinate, and
  so is the host's dot_general; an entry of a product depends on one row of the left operand, so the ten blocks of
  rows are the rows of the whole product (Proof/LibMatProd.lean, Proof/KernelRegions.lean). Hence both programs end
  with the result buffer at the same function of the arguments — the network over the two whole-array products —
  whatever the arguments hold: no sum is re-ordered and nothing is cancelled, so finiteness of the inputs is never
  used. The kernel's side is read off its run segment by segment (Proof/KernelRun.lean, Proof/KernelHost.lean,
  Proof/KernelValue.lean), the reference's off its straight line of host operations (Proof/RefRun.lean). The
  idealization rewrote no operation, so that claim is trivial.
-/
import proofs.«169060_j72971494359297_1_alg».proof.Defs
import proofs.«169060_j72971494359297_1_alg».proof.Proof.Gen.Kernel
import proofs.«169060_j72971494359297_1_alg».proof.Proof.Gen.Kernel.Skeleton
import proofs.«169060_j72971494359297_1_alg».proof.Proof.Gen.Kernel.Launch
import proofs.«169060_j72971494359297_1_alg».proof.Proof.Gen.Kernel.Points
import proofs.«169060_j72971494359297_1_alg».proof.Proof.Gen.Kernel.Frame
import proofs.«169060_j72971494359297_1_alg».proof.Proof.Gen.KernelIdeal
import proofs.«169060_j72971494359297_1_alg».proof.Proof.Gen.KernelIdeal.Skeleton
import proofs.«169060_j72971494359297_1_alg».proof.Proof.Gen.KernelIdeal.Launch
import proofs.«169060_j72971494359297_1_alg».proof.Proof.Gen.KernelIdeal.Points
import proofs.«169060_j72971494359297_1_alg».proof.Proof.Gen.KernelIdeal.Frame
import proofs.«169060_j72971494359297_1_alg».proof.Proof.Gen.ReferenceIdeal
import proofs.«169060_j72971494359297_1_alg».proof.Proof.Gen.Pre_finite_inputs
import proofs.«169060_j72971494359297_1_alg».proof.Proof.LibMatProd
import proofs.«169060_j72971494359297_1_alg».proof.Proof.KernelValue
import proofs.«169060_j72971494359297_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem
open Cert.Gcn Cert.Lib.MatProd

/-! ## The frames and the idealization -/

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run m ρ)
/-- The ideal pass rewrote nothing. -/
theorem preserves : Cert.preserves_Kernel_KernelIdeal := trivial

/-! ## The two products -/

/-- The reference's first dot_general is the whole-array product. -/
theorem dot1_eq (A : FVec Ideal Cert.ReferenceIdeal.S50000x256 .f32) (B : FVec Ideal Cert.ReferenceIdeal.S256x256 .f32) :
    Host.dotGeneral (F := Ideal) Cert.ReferenceIdeal.dot_S50000x256_S256x256_S50000x256_1_0_0_1_n_n none A B = matProd A B :=
  dotGeneral_eq_matProd _ rfl rfl rfl rfl rfl rfl none .single A B

/-- The reference's second dot_general is the whole-array product. -/
theorem dot2_eq (A : FVec Ideal Cert.ReferenceIdeal.S50000x256 .f32) (B : FVec Ideal Cert.ReferenceIdeal.S256x128 .f32) :
    Host.dotGeneral (F := Ideal) Cert.ReferenceIdeal.dot_S50000x256_S256x128_S50000x128_1_0_0_1_n_n none A B = matProd A B :=
  dotGeneral_eq_matProd _ rfl rfl rfl rfl rfl rfl none .single A B

/-! ## Equal results -/

/-- Both programs end with the result buffer at the network over the two whole-array products of the arguments: the
    kernel by its walk, the reference by its run and `dot1_eq`, `dot2_eq`. -/
theorem algebraic : Cert.algebraic_KernelIdeal_ReferenceIdeal := by
  intro m ρ m' ρ' _ hagree
  refine ⟨fun c => conv128 (srcOf (m ((c.tc : Thread Cert.KernelIdeal.nD Cert.KernelIdeal.τ).loc Cert.KernelIdeal.main_arg1))) (dstOf (m ((c.tc : Thread Cert.KernelIdeal.nD Cert.KernelIdeal.τ).loc Cert.KernelIdeal.main_arg1))) (normOf (srcOf (m ((c.tc : Thread Cert.KernelIdeal.nD Cert.KernelIdeal.τ).loc Cert.KernelIdeal.main_arg1))) (dstOf (m ((c.tc : Thread Cert.KernelIdeal.nD Cert.KernelIdeal.τ).loc Cert.KernelIdeal.main_arg1))))
      (matProd (hidden (srcOf (m ((c.tc : Thread Cert.KernelIdeal.nD Cert.KernelIdeal.τ).loc Cert.KernelIdeal.main_arg1))) (dstOf (m ((c.tc : Thread Cert.KernelIdeal.nD Cert.KernelIdeal.τ).loc Cert.KernelIdeal.main_arg1))) (normOf (srcOf (m ((c.tc : Thread Cert.KernelIdeal.nD Cert.KernelIdeal.τ).loc Cert.KernelIdeal.main_arg1))) (dstOf (m ((c.tc : Thread Cert.KernelIdeal.nD Cert.KernelIdeal.τ).loc Cert.KernelIdeal.main_arg1))))
        (matProd (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))) (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result_eq m ρ c), (h c).2⟩)
      (Cert.KernelIdeal.RunValue.run_result m ρ)
  · refine (θ_run Cert.ReferenceIdeal.defs _ _).mono (fun r h c => ⟨(h c).1.trans ?_, (h c).2⟩)
      (Cert.ReferenceIdeal.HandRun.run m' ρ')
    obtain ⟨h0, h1, h2, h3, h4, h5⟩ := hagree c
    rw [h0, h1, h2, h3, h4, h5, dot1_eq, dot2_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
